-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.FiniteInputs.lean ====
/-
  What the precondition says: the entries of x and of the scale vector are real numbers.

  The precondition is the conjunction of three tests, one per float argument, each "every entry's absolute value is
  below +inf". An extended real whose absolute value max(a, -a) is below +inf is neither +inf nor -inf, so it is a real
  number. The law that joins the two programs needs this of x and of the scale; of the bias it needs nothing.
-/
import proofs.«143573_j10900626997679_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The scalar shape has one index. -/
instance : Subsingleton S_.Idx := ⟨fun a b => funext fun d => d.elim0⟩

/-- The pattern the tests compare against denotes +inf. -/
theorem inf_word : Ideal.ofBits .f32 0x7F800000#32 = (⊤ : EReal) := by
  simp [Ideal.ofBits, Ideal.ieee]

/-- An extended real whose absolute value is below +inf is a real number. -/
theorem real_of_abs_lt_inf (a : EReal) (h : Ideal.cmp .olt (max a (-a)) (Ideal.ofBits .f32 0x7F800000#32) = 1#1) :
    ∃ r : ℝ, a = (r : EReal) := by
  rw [inf_word] at h
  have hlt : max a (-a) < ⊤ := by
    by_contra hn
    simp [Ideal.cmp, hn] at h
  have htop : a ≠ ⊤ := by
    rintro rfl
    exact absurd hlt (by simp)
  have hbot : a ≠ ⊥ := by
    rintro rfl
    exact absurd hlt (by simp)
  exact ⟨a.toReal, (EReal.coe_toReal htop hbot).symm⟩

/-- Under the precondition every entry of x and every entry of the scale vector is a real number. -/
theorem real_of_pre (x : FVec Ideal S8192x4096 .f32) (w : IVec S4096x4096 32) (s b : FVec Ideal S4096 .f32)
    (h : fn (F := Ideal) x w s b = fun _ => 1#1) :
    (∀ i : S8192x4096.Idx, ∃ r : ℝ, (x i : EReal) = (r : EReal)) ∧ (∀ i : S4096.Idx, ∃ r : ℝ, (s i : EReal) = (r : EReal)) := by
  have h0 := congrFun h ValueIdx.ix0
  dsimp only [fn] at h0
  obtain ⟨h12, -⟩ := IntOp.andi_eq_one.1 h0
  obtain ⟨h1, h2⟩ := IntOp.andi_eq_one.1 h12
  exact ⟨fun i => real_of_abs_lt_inf _ (Host.reduce_andi_all _ _ _ _ _ h1 i),
    fun i => real_of_abs_lt_inf _ (Host.reduce_andi_all _ _ _ _ _ h2 i)⟩

end Cert.Pre_finite_inputs.Finite

end
-- ==== Proof.TilePayloads.lean ====
/-
  What the kernel body computes on one (2048 × 1024) output tile, entry by entry, at the ideal values.

  The body has three stores into the tile. At the first step of the innermost grid axis it clears the tile. At every
  step it adds to the tile the product of the step's (2048 × 512) block of x with the transpose of the step's
  (1024 × 512) block of the integer weight — both operands pass through bf16 on the way to the matrix unit, which at
  the ideal values changes nothing, and the weight's integers are read as reals. At the last step it multiplies each
  column of the tile by that column's scale and adds that column's bias, the two rows broadcast down the tile.
  So at entry (r, c): the cleared tile holds 0; an accumulation step leaves acc[r,c] + sum over l of x[r,l] · w[c,l];
  the last store leaves acc[r,c] · s[0,c] + b[0,c].
-/
import proofs.«143573_j10900626997679_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The cleared tile holds zero everywhere. -/
theorem cleared_apply (j : S2048x1024.Idx) : (k0_pay1 (F := Ideal) j : EReal) = 0 := by
  unfold k0_pay1
  show Ideal.ofBits .f32 0x00000000#32 = 0
  exact Ideal.ofBits_zero_f32

/-- The matrix unit's operand indices at output entry `i` and contraction index `q`: the left operand is read at
    row `i 0`, the right at row `i 1`, both at column `q` — the contraction runs along each block's second axis. -/
theorem lhs_row (i : S2048x1024.Idx) (q : dot_S2048x512_S1024x512_S2048x1024_1_1_0_0_n_n.contr.Idx) : (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_col (i : S2048x1024.Idx) (q : dot_S2048x512_S1024x512_S2048x1024_1_1_0_0_n_n.contr.Idx) : (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_row (i : S2048x1024.Idx) (q : dot_S2048x512_S1024x512_S2048x1024_1_1_0_0_n_n.contr.Idx) : (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_col (i : S2048x1024.Idx) (q : dot_S2048x512_S1024x512_S2048x1024_1_1_0_0_n_n.contr.Idx) : (dot_S2048x512_S1024x512_S2048x1024_1_1_0_0_n_n.rhsIdx i q 1).val = (q ⟨0, by decide⟩).val :=
  dot_S2048x512_S1024x512_S2048x1024_1_1_0_0_n_n.rhsIdx_val_of_single rfl i q

/-- One step's contribution to entry (r, c) of the tile: the inner product of row `r` of the step's x block with row `c`
    of the step's weight block, the weight's integers read as reals. -/
def stepDot (x : Vec Ideal S2048x512 .f32) (w : Vec Ideal S1024x512 .i32) (r : Fin 2048) (c : Fin 1024) : EReal :=
  ∑ l : Fin 512, (x (ix2 r l) : EReal) * (FloatOps.sitofp (F := Ideal) FTy.f32 (w (ix2 c l)) : EReal)

/-- An accumulation step at entry (r, c): what the tile held there, plus the step's inner product. -/
theorem accumulate_apply (x : Vec Ideal S2048x512 .f32) (w : Vec Ideal S1024x512 .i32) (acc : Vec Ideal S2048x1024 .f32)
    (r : Fin 2048) (c : Fin 1024) :
    (k0_pay2 (F := Ideal) x w acc (ix2 r c) : EReal) = (acc (ix2 r c) : EReal) + stepDot x w r c := by
  unfold k0_pay2
  simp only [shapeCast_self, matmul]
  refine (addf_apply _ _ _).trans ?_
  refine congrArg (fun z : EReal => (acc (ix2 r c) : EReal) + z) ?_
  rw [Ideal.matmul_constant_zero_apply, ← Equiv.sum_comp (contrEquiv1 dot_S2048x512_S1024x512_S2048x1024_1_1_0_0_n_n 512 rfl rfl).symm]
  unfold stepDot
  refine Finset.sum_congr rfl fun l _ => ?_
  have hk := contrEquiv1_symm_val dot_S2048x512_S1024x512_S2048x1024_1_1_0_0_n_n 512 rfl rfl l
  have el : dot_S2048x512_S1024x512_S2048x1024_1_1_0_0_n_n.lhsIdx (ix2 r c) ((contrEquiv1 dot_S2048x512_S1024x512_S2048x1024_1_1_0_0_n_n 512 rfl rfl).symm l) = ix2 r l := funext fun a => Fin.ext (by
    match a with
    | ⟨0, _⟩ => exact lhs_row _ _
    | ⟨1, _⟩ => exact (lhs_col _ _).trans hk)
  have er : dot_S2048x512_S1024x512_S2048x1024_1_1_0_0_n_n.rhsIdx (ix2 r c) ((contrEquiv1 dot_S2048x512_S1024x512_S2048x1024_1_1_0_0_n_n 512 rfl rfl).symm l) = ix2 c l := funext fun a => Fin.ext (by
    match a with
    | ⟨0, _⟩ => exact rhs_row _ _
    | ⟨1, _⟩ => exact (rhs_col _ _).trans hk)
  rw [el, er]
  rfl

/-- The last store at entry (r, c): the accumulated value times column `c`'s scale, plus column `c`'s bias. -/
theorem scale_shift_apply (acc : Vec Ideal S2048x1024 .f32) (s b : Vec Ideal S1x1024 .f32) (r : Fin 2048) (c : Fin 1024) :
    (k0_pay3 (F := Ideal) acc s b (ix2 r c) : EReal)
      = (acc (ix2 r c) : EReal) * (s (ix2 (0 : Fin 1) c) : EReal) + (b (ix2 (0 : Fin 1) c) : EReal) := by
  unfold k0_pay3
  simp only [shapeCast_self]
  refine (addf_apply _ _ _).trans ?_
  rw [mulf_apply, broadcastTo_1b_ab_apply, broadcastTo_1b_ab_apply]

end Cert.KernelIdeal.Tile

end
-- ==== Proof.TileBlocks.lean ====
/-
  The kernel's input blocks as pieces of the argument arrays.

  The grid is 4 × 4 × 8, its points numbered row-major: point n is output tile (n / 32, n / 8 mod 4) at step n mod 8 of
  the contraction. At point n the kernel sees rows 2048·(n/32) … of x and columns 512·(n mod 8) … of both x and the
  weight, rows 1024·(n/8 mod 4) … of the weight, and entries 1024·(n/8 mod 4) … of the scale and the bias, each of
  which the program has laid out as a single row of 4096 before the call.
  An element of a block sits in its array, on each axis, at the block's index times the block's extent plus the
  element's own coordinate; the block indices are read off the printed index maps once, over all 128 points.
-/
import proofs.«143573_j10900626997679_2_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Tile

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- x's block at point `t` is block (t / 32, t mod 8). -/
theorem x_block_index : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
/-- The weight's block at point `t` is block (t / 8 mod 4, t mod 8). -/
theorem w_block_index : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
/-- The scale row's block at point `t` is block (0, t / 8 mod 4). -/
theorem s_block_index : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)
/-- The bias row's block at point `t` is block (0, t / 8 mod 4). -/
theorem b_block_index : ∀ t : Fin cfg0.N, win0_3.index t (0 : Fin 2) = 0 ∧ win0_3.index t (1 : Fin 2) = t.val / 8 % 4 :=
  (by decide +kernel : ∀ t : Fin grid0.N, win0_3.index t (0 : Fin 2) = 0 ∧ win0_3.index t (1 : Fin 2) = t.val / 8 % 4)

/-- Entry (r, l) of x's block at point `t` is x[2048·(t/32) + r, 512·(t mod 8) + l]. -/
theorem x_block_apply (c : Dev nD) (t : Fin cfg0.N) (r : Fin 2048) (l : Fin 512) (i : Fin 8192) (k : Fin 4096)
    (hi : i.val = 2048 * (t.val / 32) + r.val) (hk : k.val = 512 * (t.val % 8) + l.val) :
    (iblk m c 0 t : Vec F S2048x512 .f32) (ix2 r l)
      = (m ((c : Thread nD τ).loc main_arg0) : S8192x4096.Idx → Elt F .f32) (ix2 i k) := by
  obtain ⟨e0, e1⟩ := x_block_index t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 2048 + 1 * r.val = i.val; rw [e0, hi]; omega
  | ⟨1, _⟩ => show win0_0.index t (1 : Fin 2) * 512 + 1 * l.val = k.val; rw [e1, hk]; omega

/-- Entry (cc, l) of the weight's block at point `t` is w[1024·(t/8 mod 4) + cc, 512·(t mod 8) + l]. -/
theorem w_block_apply (c : Dev nD) (t : Fin cfg0.N) (cc : Fin 1024) (l : Fin 512) (o : Fin 4096) (k : Fin 4096)
    (ho : o.val = 1024 * (t.val / 8 % 4) + cc.val) (hk : k.val = 512 * (t.val % 8) + l.val) :
    (iblk m c 1 t : Vec F S1024x512 .i32) (ix2 cc l)
      = (m ((c : Thread nD τ).loc main_arg1) : S4096x4096.Idx → Elt F .i32) (ix2 o k) := by
  obtain ⟨e0, e1⟩ := w_block_index t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 1024 + 1 * cc.val = o.val; rw [e0, ho]; omega
  | ⟨1, _⟩ => show win0_1.index t (1 : Fin 2) * 512 + 1 * l.val = k.val; rw [e1, hk]; omega

/-- The array the scale window stages: the scale vector laid out as one row. -/
theorem scale_row (c : Dev nD) (h : S4096.ShapeCasts S1x4096) :
    (V m c main_v0 : S1x4096.Idx → Elt F .f32)
      = shapeCast S1x4096 (m ((c : Thread nD τ).loc main_arg2) : S4096.Idx → Elt F .f32) h := by
  dsimp only [V, hostOps0]
  after_results
  rfl

/-- The array the bias window stages: the bias vector laid out as one row. -/
theorem bias_row (c : Dev nD) (h : S4096.ShapeCasts S1x4096) :
    (V m c main_v1 : S1x4096.Idx → Elt F .f32)
      = shapeCast S1x4096 (m ((c : Thread nD τ).loc main_arg3) : S4096.Idx → Elt F .f32) h := by
  dsimp only [V, hostOps0]
  after_results
  rfl

/-- Entry (0, cc) of the scale row's block at point `t` is s[1024·(t/8 mod 4) + cc]. -/
theorem s_block_apply (c : Dev nD) (t : Fin cfg0.N) (cc : Fin 1024) (o : Fin 4096)
    (ho : o.val = 1024 * (t.val / 8 % 4) + cc.val) (h : S4096.ShapeCasts S1x4096) :
    (iblk m c 2 t : Vec F S1x1024 .f32) (ix2 (0 : Fin 1) cc)
      = (m ((c : Thread nD τ).loc main_arg2) : S4096.Idx → Elt F .f32) (ix1 o) := by
  obtain ⟨e0, e1⟩ := s_block_index t
  unfold iblk
  rw [View.read_apply]
  show (V m c main_v0 : S1x4096.Idx → Elt F .f32) _ = _
  rw [scale_row m c h]
  refine Eq.trans (congrArg (shapeCast S1x4096 (m ((c : Thread nD τ).loc main_arg2) : S4096.Idx → Elt F .f32) h)
    (?_ : _ = (ix2 (0 : Fin 1) o : S1x4096.Idx))) (shapeCast_a_1a_apply _ h (0 : Fin 1) o)
  refine funext fun a => Fin.ext ?_
  match a with
  | ⟨0, _⟩ => show win0_2.index t (0 : Fin 2) * 1 + 1 * 0 = 0; rw [e0]
  | ⟨1, _⟩ => show win0_2.index t (1 : Fin 2) * 1024 + 1 * cc.val = o.val; rw [e1, ho]; omega

/-- Entry (0, cc) of the bias row's block at point `t` is b[1024·(t/8 mod 4) + cc]. -/
theorem b_block_apply (c : Dev nD) (t : Fin cfg0.N) (cc : Fin 1024) (o : Fin 4096)
    (ho : o.val = 1024 * (t.val / 8 % 4) + cc.val) (h : S4096.ShapeCasts S1x4096) :
    (iblk m c 3 t : Vec F S1x1024 .f32) (ix2 (0 : Fin 1) cc)
      = (m ((c : Thread nD τ).loc main_arg3) : S4096.Idx → Elt F .f32) (ix1 o) := by
  obtain ⟨e0, e1⟩ := b_block_index t
  unfold iblk
  rw [View.read_apply]
  show (V m c main_v1 : S1x4096.Idx → Elt F .f32) _ = _
  rw [bias_row m c h]
  refine Eq.trans (congrArg (shapeCast S1x4096 (m ((c : Thread nD τ).loc main_arg3) : S4096.Idx → Elt F .f32) h)
    (?_ : _ = (ix2 (0 : Fin 1) o : S1x4096.Idx))) (shapeCast_a_1a_apply _ h (0 : Fin 1) o)
  refine funext fun a => Fin.ext ?_
  match a with
  | ⟨0, _⟩ => show win0_3.index t (0 : Fin 2) * 1 + 1 * 0 = 0; rw [e0]
  | ⟨1, _⟩ => show win0_3.index t (1 : Fin 2) * 1024 + 1 * cc.val = o.val; rw [e1, ho]; omega

end Cert.KernelIdeal.Tile

end
-- ==== Proof.TileFold.lean ====
/-
  The kernel's final array at one index, as a function of the argument arrays.

  Output tile (a, b) is owned by the 8 consecutive grid points 8q … 8q + 7, q = 4a + b: the first clears the tile and
  adds its step's product, the next six add theirs, and the last adds its own and then scales every column and adds the
  bias, after which the tile is written back. So entry (r, c) of the tile ends at
      (0 + the sum over the 8 points of that point's inner product at (r, c)) · scale[0, c] + bias[0, c],
  the scale and bias rows being the last point's blocks.
  Array index (t, o) lies in tile (t / 2048, o / 1024) at place (t mod 2048, o mod 1024), and the blocks the 8 points
  read are rows t-of-x and o-of-w cut into 8 consecutive stretches of 512 columns; the scale and bias entries are
  those of column o. That gives the final array at (t, o) in terms of the arguments alone.
-/
import proofs.«143573_j10900626997679_2_alg».proof.Proof.Gen.KernelIdeal.Value
import proofs.«143573_j10900626997679_2_alg».proof.Proof.TilePayloads
import proofs.«143573_j10900626997679_2_alg».proof.Proof.TileBlocks

noncomputable section

open scoped BigOperators

namespace Cert.KernelIdeal.Tile

open Cert.KernelIdeal Cert.KernelIdeal.Gen Cert.KernelIdeal.Value Idealize.ShloMosaic Idealize.ShloMosaic.TcCoe Idealize.SL.Sem
open Idealize.ShloMosaic.ValueIdx Idealize.ShloMosaic.Pipeline

variable (m : (ℓ : Loc nD τ sig) → Buf (Elt Ideal) ℓ)

/-- What grid point `n` adds to a tile entry: the inner product of its x block's row with its weight block's row
    (zero past the grid, where it is never used). -/
def pointDot (c : Dev nD) (n : ℕ) (y : S2048x1024.Idx) : EReal :=
  if h : n < cfg0.N then
    stepDot (iblk m c 0 ⟨n, h⟩) (iblk m c 1 ⟨n, h⟩) ⟨(y 0).val, idx2_lt0 y⟩ ⟨(y 1).val, idx2_lt1 y⟩
  else 0

theorem pointDot_ix2 (c : Dev nD) (n : ℕ) (h : n < cfg0.N) (r : Fin 2048) (cc : Fin 1024) :
    pointDot m c n (ix2 r cc) = stepDot (iblk m c 0 ⟨n, h⟩) (iblk m c 1 ⟨n, h⟩) r cc := by
  unfold pointDot
  rw [dif_pos h]

/-- After the first seven points of a tile's run, an entry holds the sum of their inner products (from zero). -/
theorem fold_seven (c : Dev nD) (q : ℕ) (h : 8 * q + 6 < cfg0.N) (y : S2048x1024.Idx) :
    (accAt (reset4 m c) (step4 m c) (8 * q) 6 h y : EReal) = 0 + ∑ j ∈ Finset.range 7, pointDot m c (8 * q + j) y := by
  refine accAt_add_apply (ι := S2048x1024.Idx) (β := EReal) (reset4 m c) (step4 m c) (fun _ => 0) (pointDot m c) (8 * q) 6
    (fun hb y => ?_) (fun n hn acc y h1 h2 => ?_) 6 le_rfl h y
  · obtain ⟨r, cc, rfl⟩ : ∃ (r : Fin 2048) (cc : Fin 1024), y = ix2 r cc := ⟨y 0, y 1, eq_ix2 y⟩
    rw [pointDot_ix2 m c (8 * q) hb r cc]
    unfold reset4
    refine (accumulate_apply (iblk m c 0 ⟨8 * q, hb⟩) (iblk m c 1 ⟨8 * q, hb⟩) (k0_pay1 (F := Ideal)) r cc).trans ?_
    rw [cleared_apply]
  · obtain ⟨r, cc, rfl⟩ : ∃ (r : Fin 2048) (cc : Fin 1024), y = ix2 r cc := ⟨y 0, y 1, eq_ix2 y⟩
    rw [pointDot_ix2 m c n hn r cc]
    unfold step4
    rw [if_pos ⟨by omega, by omega⟩]
    exact accumulate_apply (iblk m c 0 ⟨n, hn⟩) (iblk m c 1 ⟨n, hn⟩) acc r cc

/-- After the whole run, an entry holds the sum of the eight inner products, times its column's scale, plus its
    column's bias. -/
theorem fold_eight (c : Dev nD) (q : ℕ) (h : 8 * q + 7 < cfg0.N) (r : Fin 2048) (cc : Fin 1024) :
    (accAt (reset4 m c) (step4 m c) (8 * q) 7 h (ix2 r cc) : EReal)
      = (0 + ∑ j ∈ Finset.range 8, pointDot m c (8 * q + j) (ix2 r cc))
          * ((iblk m c 2 ⟨8 * q + 7, h⟩ : Vec Ideal S1x1024 .f32) (ix2 (0 : Fin 1) cc) : EReal)
        + ((iblk m c 3 ⟨8 * q + 7, h⟩ : Vec Ideal S1x1024 .f32) (ix2 (0 : Fin 1) cc) : EReal) := by
  have h6 : 8 * q + 6 < cfg0.N := by omega
  have e : accAt (reset4 m c) (step4 m c) (8 * q) 7 h
      = step4 m c (8 * q + 7) h (accAt (reset4 m c) (step4 m c) (8 * q) 6 h6) := rfl
  rw [e]
  unfold step4
  rw [if_neg (by omega), if_pos ⟨by omega, by omega⟩]
  refine (scale_shift_apply
    (k0_pay2 (iblk m c 0 ⟨8 * q + 7, h⟩) (iblk m c 1 ⟨8 * q + 7, h⟩) (accAt (reset4 m c) (step4 m c) (8 * q) 6 h6))
    (iblk m c 2 ⟨8 * q + 7, h⟩) (iblk m c 3 ⟨8 * q + 7, h⟩) r cc).trans ?_
  rw [accumulate_apply (iblk m c 0 ⟨8 * q + 7, h⟩) (iblk m c 1 ⟨8 * q + 7, h⟩) (accAt (reset4 m c) (step4 m c) (8 * q) 6 h6) r cc,
    fold_seven m c q h6 (ix2 r cc), Finset.sum_range_succ _ 7, pointDot_ix2 m c (8 * q + 7) h r cc, add_assoc]

/-- Row `t` of x and row `o` of the weight (its integers read as reals), as functions of the column. -/
def xRow (c : Dev nD) (t : Fin 8192) (k : Fin 4096) : EReal :=
  ((m ((c : Thread nD τ).loc main_arg0) : S8192x4096.Idx → Elt Ideal .f32) (ix2 t k) : EReal)
def wRow (c : Dev nD) (o : Fin 4096) (k : Fin 4096) : EReal :=
  (FloatOps.sitofp (F := Ideal) FTy.f32 ((m ((c : Thread nD τ).loc main_arg1) : S4096x4096.Idx → Elt Ideal .i32) (ix2 o k)) : EReal)

/-- The run that owns array index (t, o), read at that index's place in the tile, in terms of the arguments. -/
theorem run_apply (c : Dev nD) (t : Fin 8192) (o : Fin 4096) (q : ℕ) (hq : q = 4 * (t.val / 2048) + o.val / 1024)
    (h : 8 * q + 7 < cfg0.N) (r : Fin 2048) (cc : Fin 1024) (hr : r.val = t.val % 2048) (hcc : cc.val = o.val % 1024) :
    (accAt (reset4 m c) (step4 m c) (8 * q) 7 h (ix2 r cc) : EReal)
      = (0 + ∑ j ∈ Finset.range 8, ∑ l : Fin 512,
            xRow m c t ⟨(512 * j + l.val) % 4096, Nat.mod_lt _ (by decide)⟩ * wRow m c o ⟨(512 * j + l.val) % 4096, Nat.mod_lt _ (by decide)⟩)
          * ((m ((c : Thread nD τ).loc main_arg2) : S4096.Idx → Elt Ideal .f32) (ix1 o) : EReal)
        + ((m ((c : Thread nD τ).loc main_arg3) : S4096.Idx → Elt Ideal .f32) (ix1 o) : EReal) := by
  have ht := t.isLt
  have ho := o.isLt
  rw [fold_eight m c q h r cc,
    s_block_apply m c ⟨8 * q + 7, h⟩ cc o (by show o.val = 1024 * ((8 * q + 7) / 8 % 4) + cc.val; omega) shapeCasts_S4096_S1x4096,
    b_block_apply m c ⟨8 * q + 7, h⟩ cc o (by show o.val = 1024 * ((8 * q + 7) / 8 % 4) + cc.val; omega) shapeCasts_S4096_S1x4096]
  refine congrArg (fun z : EReal => (0 + z) * _ + _) (Finset.sum_congr rfl fun j hj => ?_)
  have hj8 : j < 8 := Finset.mem_range.1 hj
  have hjN : 8 * q + j < cfg0.N := by omega
  rw [pointDot_ix2 m c (8 * q + j) hjN r cc]
  unfold stepDot xRow wRow
  refine Finset.sum_congr rfl fun l _ => ?_
  have hl := l.isLt
  rw [x_block_apply m c ⟨8 * q + j, hjN⟩ r l t ⟨(512 * j + l.val) % 4096, Nat.mod_lt _ (by decide)⟩
      (by show t.val = 2048 * ((8 * q + j) / 32) + r.val; omega)
      (by show (512 * j + l.val) % 4096 = 512 * ((8 * q + j) % 8) + l.val; omega),
    w_block_apply m c ⟨8 * q + j, hjN⟩ cc l o ⟨(512 * j + l.val) % 4096, Nat.mod_lt _ (by decide)⟩
      (by show o.val = 1024 * ((8 * q + j) / 8 % 4) + cc.val; omega)
      (by show (512 * j + l.val) % 4096 = 512 * ((8 * q + j) % 8) + l.val; omega)]

/-- THE KERNEL'S FINAL ARRAY at index (t, o): the eight stretches' inner products of row t of x with row o of the
    weight, summed from zero, times scale[o], plus bias[o]. -/
theorem final_apply (c : Dev nD) (t : Fin 8192) (o : Fin 4096) :
    (G4 m c (ix2 t o) : EReal)
      = (0 + ∑ j ∈ Finset.range 8, ∑ l : Fin 512,
            xRow m c t ⟨(512 * j + l.val) % 4096, Nat.mod_lt _ (by decide)⟩ * wRow m c o ⟨(512 * j + l.val) % 4096, Nat.mod_lt _ (by decide)⟩)
          * ((m ((c : Thread nD τ).loc main_arg2) : S4096.Idx → Elt Ideal .f32) (ix1 o) : EReal)
        + ((m ((c : Thread nD τ).loc main_arg3) : S4096.Idx → Elt Ideal .f32) (ix1 o) : EReal) := by
  have ht := t.isLt
  have ho := o.isLt
  have hN : cfg0.N = 128 := N_0
  have hq : run4Of (ix2 t o) = 4 * (t.val / 2048) + o.val / 1024 := by
    show 4 * (t.val / 2048 - 0) + 1 * (o.val / 1024 - 0) = _
    omega
  have h7 : 8 * run4Of (ix2 t o) + 7 < cfg0.N := by rw [hq, hN]; omega
  have hloc : loc4Of (ix2 t o) = ix2 (⟨t.val % 2048, Nat.mod_lt _ (by decide)⟩ : Fin 2048) (⟨o.val % 1024, Nat.mod_lt _ (by decide)⟩ : Fin 1024) :=
    funext fun a => by match a with | ⟨0, _⟩ => rfl | ⟨1, _⟩ => rfl
  unfold G4
  rw [dif_pos h7, hloc]
  exact run_apply m c t o (run4Of (ix2 t o)) hq h7 _ _ rfl rfl

end Cert.KernelIdeal.Tile

end
-- ==== Proof.RefRead.lean ====
/-
  The reference's result, read at one index.

  The reference dequantizes the whole weight matrix (the integer weight as a real, times its output channel's scale),
  takes one inner product over the full input dimension per output entry, and adds the output channel's bias. Read at
  entry (t, o) through the operations' index maps — the two broadcasts of the scale vector to a column and then to the
  matrix, the contraction of x's axis 1 with the weight's axis 1, the two broadcasts of the bias to a row and then to
  the result — that is: sum over k of x[t,k] · (w[o,k] · s[o]), plus b[o].
-/
import proofs.«143573_j10900626997679_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-- Entry (t, o) of the reference's result. -/
theorem result_apply (x : (⟨S8192x4096, .f32⟩ : BufTy).Contents (Elt Ideal)) (w : (⟨S4096x4096, .i32⟩ : BufTy).Contents (Elt Ideal))
    (s b : (⟨S4096, .f32⟩ : BufTy).Contents (Elt Ideal)) (t : Fin 8192) (o : Fin 4096) :
    val_main_v7 (F := Ideal) x w s b (ix2 t o)
      = (∑ k : Fin 4096, (x (ix2 t k) : EReal) * ((FloatOps.sitofp (F := Ideal) FTy.f32 (w (ix2 o k)) : EReal) * (s (ix1 o) : EReal)))
          + (b (ix1 o) : EReal) := by
  have hl : ∀ k : Fin 4096, lidx_main_v4 (ix2 t o) k = ix2 t k := fun k =>
    funext fun a => by match a with | ⟨0, _⟩ => rfl | ⟨1, _⟩ => rfl
  have hr : ∀ k : Fin 4096, ridx_main_v4 (ix2 t o) k = ix2 o k := fun k =>
    funext fun a => by match a with | ⟨0, _⟩ => rfl | ⟨1, _⟩ => rfl
  have hs : ∀ k : Fin 4096, idx_main_v1 (idx_main_v2 (ix2 o k)) = ix1 o := fun k =>
    funext fun a => by match a with | ⟨0, _⟩ => rfl
  have hb : idx_main_v5 (idx_main_v6 (ix2 t o)) = ix1 o :=
    funext fun a => by match a with | ⟨0, _⟩ => rfl
  rw [val_main_v7_apply, val_main_v4_apply, val_main_v6_apply, val_main_v5_apply, hb]
  simp only [hl, hr, val_main_v3_apply, val_main_v0_apply, val_main_v2_apply, val_main_v1_apply, hs]
  rfl

end Cert.ReferenceIdeal.RefValue

end
-- ==== Proof.ScaleLaw.lean ====
/-
  The arithmetic that joins the two programs, on the extended reals.

  The reference scales each weight by its output channel's factor BEFORE the inner product: entry (t, o) of its
  result is the sum over k of x[t,k] · (w[o,k] · s[o]). The kernel scales AFTER it: (sum over k of x[t,k] · w[o,k]) · s[o],
  and it forms that inner product in 8 consecutive stretches of 512 terms, one per step of its innermost grid axis.

  Taking a common factor out of a sum is NOT a law of the extended reals (terms +inf and -inf with a negative factor
  already break it), so the law is proved where it holds: every term a real number. There the extended-real products
  and sums are the real ones (the coercion is additive and multiplicative), and the statement is distributivity in ℝ.
  Cutting the sum into stretches is plain re-indexing and holds in any commutative monoid.
-/
import Idealize.ShloMosaic.PureOps.Ideal.Laws

open scoped BigOperators

namespace Cert.ScaleLaw

/-- A finite sum of real numbers, each read as an extended real, is the real sum read as an extended real. -/
theorem coe_sum {ι : Type*} (s : Finset ι) (f : ι → ℝ) :
    (∑ k ∈ s, ((f k : ℝ) : EReal)) = ((∑ k ∈ s, f k : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- THE LAW: when every factor is a real number, a factor common to all terms leaves the sum. -/
theorem sum_mul_right_of_real {ι : Type*} [Fintype ι] (x w : ι → EReal) (s : EReal)
    (hx : ∀ k, ∃ r : ℝ, x k = (r : EReal)) (hw : ∀ k, ∃ r : ℝ, w k = (r : EReal)) (hs : ∃ r : ℝ, s = (r : EReal)) :
    ∑ k, x k * (w k * s) = (∑ k, x k * w k) * s := by
  choose xr hxr using hx
  choose wr hwr using hw
  obtain ⟨sr, rfl⟩ := hs
  have h1 : ∀ k, x k * (w k * (sr : EReal)) = ((xr k * (wr k * sr) : ℝ) : EReal) := fun k => by
    rw [hxr k, hwr k, ← EReal.coe_mul, ← EReal.coe_mul]
  have h2 : ∀ k, x k * w k = ((xr k * wr k : ℝ) : EReal) := fun k => by
    rw [hxr k, hwr k, ← EReal.coe_mul]
  rw [Finset.sum_congr rfl (fun k _ => h1 k), Finset.sum_congr rfl (fun k _ => h2 k), coe_sum, coe_sum,
    ← EReal.coe_mul, Finset.sum_mul]
  exact congrArg (fun r : ℝ => (r : EReal)) (Finset.sum_congr rfl fun k _ => by ring)

/-- A sum over 4096 consecutive indices, taken as 8 consecutive stretches of 512. (The stretch number ranges over the
    naturals below 8, the form in which a fold over grid points delivers it; the remainder keeps the index inside the range
    for every natural, and is the identity on the eight that occur.) -/
theorem sum_eight_stretches {M : Type*} [AddCommMonoid M] (f : Fin 4096 → M) :
    ∑ k, f k = ∑ j ∈ Finset.range 8, ∑ l : Fin 512, f ⟨(512 * j + l.val) % 4096, Nat.mod_lt _ (by decide)⟩ := by
  have e1 : ∑ k, f k = ∑ p : Fin 8 × Fin 512, f (finProdFinEquiv p) :=
    (Equiv.sum_comp (finProdFinEquiv (m := 8) (n := 512)) f).symm
  rw [e1, Fintype.sum_prod_type, Finset.sum_range]
  refine Finset.sum_congr rfl fun j _ => Finset.sum_congr rfl fun l _ => congrArg f (Fin.ext ?_)
  show l.val + 512 * j.val = (512 * j.val + l.val) % 4096
  have hj := j.isLt
  have hl := l.isLt
  omega

/-- The two programs' entries, side by side: the inner product of the row `x` with the scaled row `w · s`, plus `b`,
    is the sum of the eight stretches' inner products (from zero), times `s`, plus `b` — when every `x`, `w` and `s` is real. -/
theorem scaled_dot_eq (x w : Fin 4096 → EReal) (s b : EReal)
    (hx : ∀ k, ∃ r : ℝ, x k = (r : EReal)) (hw : ∀ k, ∃ r : ℝ, w k = (r : EReal)) (hs : ∃ r : ℝ, s = (r : EReal)) :
    (∑ k, x k * (w k * s)) + b
      = (0 + ∑ j ∈ Finset.range 8, ∑ l : Fin 512,
            x ⟨(512 * j + l.val) % 4096, Nat.mod_lt _ (by decide)⟩ * w ⟨(512 * j + l.val) % 4096, Nat.mod_lt _ (by decide)⟩) * s + b := by
  rw [sum_mul_right_of_real x w s hx hw hs, sum_eight_stretches (fun k => x k * w k), zero_add]

end Cert.ScaleLaw
-- ==== Proof.Bridge.lean ====
/-
  The kernel's final array is the reference's result, index by index, when x and the scale are real.

  At index (t, o) the reference holds  sum over k of x[t,k] · (w[o,k] · s[o])  + b[o]  and the kernel's array holds
  (0 + the eight stretches' sums of x[t,k] · w[o,k]) · s[o] + b[o]. The weight's entries are integers read as reals,
  so with x and s real every factor is real, the common factor s[o] leaves the sum, and the sum over 4096 columns is the
  sum of its eight stretches.
-/
import proofs.«143573_j10900626997679_2_alg».proof.Proof.TileFold
import proofs.«143573_j10900626997679_2_alg».proof.Proof.RefRead
import proofs.«143573_j10900626997679_2_alg».proof.Proof.ScaleLaw

noncomputable section

open scoped BigOperators

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The reference's result of the kernel's arguments, and the kernel's final array, agree at every index. -/
theorem reference_eq_final (c : Dev Cert.KernelIdeal.nD)
    (hx : ∀ i : Cert.KernelIdeal.S8192x4096.Idx, ∃ r : ℝ,
      ((m ((c : Thread Cert.KernelIdeal.nD Cert.KernelIdeal.τ).loc Cert.KernelIdeal.main_arg0) : Cert.KernelIdeal.S8192x4096.Idx → Elt Ideal .f32) i : EReal) = (r : EReal))
    (hs : ∀ i : Cert.KernelIdeal.S4096.Idx, ∃ r : ℝ,
      ((m ((c : Thread Cert.KernelIdeal.nD Cert.KernelIdeal.τ).loc Cert.KernelIdeal.main_arg2) : Cert.KernelIdeal.S4096.Idx → Elt Ideal .f32) i : EReal) = (r : EReal))
    (i : Cert.KernelIdeal.S8192x4096.Idx) :
    (Cert.ReferenceIdeal.Read.val_main_v7 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)) i : EReal)
      = (Cert.KernelIdeal.Value.G4 m c i : EReal) := by
  obtain ⟨t, o, rfl⟩ : ∃ (t : Fin 8192) (o : Fin 4096), i = ix2 t o := ⟨i 0, i 1, eq_ix2 i⟩
  rw [Cert.ReferenceIdeal.RefValue.result_apply]
  refine Eq.trans ?_ (Cert.KernelIdeal.Tile.final_apply m c t o).symm
  exact Cert.ScaleLaw.scaled_dot_eq (Cert.KernelIdeal.Tile.xRow m c t) (Cert.KernelIdeal.Tile.wRow m c o) _ _
    (fun k => hx (ix2 t k))
    (fun k => ⟨((BitVec.toInt ((m ((c : Thread Cert.KernelIdeal.nD Cert.KernelIdeal.τ).loc Cert.KernelIdeal.main_arg1) :
      Cert.KernelIdeal.S4096x4096.Idx → Elt Ideal .i32) (ix2 o k)) : ℤ) : ℝ), rfl⟩)
    (hs (ix1 o))

end Cert.Bridge

end
-- ==== Proof.lean ====
/-
  A post-training-quantized linear layer: the kernel against its jnp reference, at the ideal values.

  Both programs take x (8192 × 4096 floats), an integer weight matrix w (4096 × 4096), a per-output-channel scale s and a
  bias b (4096 floats each) and return x · (w · diag-scaled)ᵀ + b. The reference scales the weight first,
  W[o,k] = w[o,k] · s[o], and forms one inner product per output entry: out[t,o] = Σ_k x[t,k] · W[o,k] + b[o]. The kernel
  tiles the output 4 × 4, walks the contraction in 8 steps of 512 columns per tile, accumulates the UNSCALED products
  x[t,k] · w[o,k] in the resident output tile (cleared at the first step), and at the last step multiplies by s[o] and
  adds b[o].

  The two agree because a factor common to all terms leaves a sum — a law of the reals, not of the extended reals, so
  the precondition is used: x and s are finite, and w is an integer. Everything else is bookkeeping that the value leg
  of the kernel's run and the read-back of the reference's run already carry: which grid points own which tile, what
  each point's blocks are as pieces of the arguments, and that a sum over 4096 columns is the sum of 8 stretches of 512.

  The three frames are the programs' runs with the values dropped; the idealized kernel is the word-level kernel's own
  text read at the ideal values (the ideal pass rewrote nothing), so that conjunct is trivial.
-/
import proofs.«143573_j10900626997679_2_alg».proof.Defs
import proofs.«143573_j10900626997679_2_alg».proof.Proof.Gen.Kernel.Frame
import proofs.«143573_j10900626997679_2_alg».proof.Proof.Gen.KernelIdeal.Value
import proofs.«143573_j10900626997679_2_alg».proof.Proof.Gen.Pre_finite_inputs
import proofs.«143573_j10900626997679_2_alg».proof.Proof.Gen.ReferenceIdeal.Run
import proofs.«143573_j10900626997679_2_alg».proof.Proof.Gen.ReferenceIdeal.Read
import proofs.«143573_j10900626997679_2_alg».proof.Proof.FiniteInputs
import proofs.«143573_j10900626997679_2_alg».proof.Proof.Bridge
import Idealize.ShloMosaic.Adequacy
import Idealize.ShloMosaic.Init

noncomputable section

namespace Cert.Proof

open Idealize.ShloMosaic Idealize.SL.Sem

/-- The idealized kernel terminates without a fault and leaves its arguments as they were: its value run, the value dropped. -/
theorem frame_KernelIdeal : frame_KernelIdeal := fun m ρ _ =>
  (θ_run Cert.KernelIdeal.defs _ _).mono (fun _ h c => (h c).2) (Cert.KernelIdeal.Value.run (F := Ideal) m ρ)

/-- So does the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end, and the reference's result is the array the
    kernel leaves: the reference's composed term, read at the kernel's arguments, is the kernel's final array at every
    index, x and s being finite by the precondition. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  obtain ⟨hx, hs⟩ := Cert.Pre_finite_inputs.Finite.real_of_pre _ _ _ _ (hpre c)
  exact (Cert.ReferenceIdeal.Read.val_main_v7_eq _ _ _ _).trans (funext fun i => Cert.Bridge.reference_eq_final m c hx hs i)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
